-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x4096 : Shape := ⟨2, ![1024, 4096]⟩
abbrev S4096 : Shape := ⟨1, ![4096]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S1024x4096 .f32) (main_arg6 : FVec F S4096 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S16384x1024 .f32) (main_arg1 : FVec F S16384x1024 .f32) (main_arg2 : FVec F S16384x1024 .f32) (main_arg3 : FVec F S1024x4096 .f32) (main_arg4 : FVec F S4096 .f32) (main_arg5 : FVec F S1024x4096 .f32) (main_arg6 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_arg5 main_arg6 main_v13 main_v16
-- ==== Kernel.lean ====
abbrev S16384x1024 : Shape := ⟨2, ![16384, 1024]⟩
abbrev S1024x4096 : Shape := ⟨2, ![1024, 4096]⟩
abbrev S4096 : Shape := ⟨1, ![4096]⟩
abbrev S2048x4096 : Shape := ⟨2, ![2048, 4096]⟩
abbrev S1x4096 : Shape := ⟨2, ![1, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 13
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S4096, .f32⟩
  | .hbm, ⟨7, _⟩ => ⟨S2048x4096, .f32⟩
  | .hbm, ⟨8, _⟩ => ⟨S2048x4096, .bf16⟩
  | .hbm, ⟨9, _⟩ => ⟨S4096, .f32⟩
  | .hbm, ⟨10, _⟩ => ⟨S1x4096, .f32⟩
  | .hbm, ⟨11, _⟩ => ⟨S16384x1024, .f32⟩
  | .hbm, ⟨12, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x4096_S1024x4096_S2048x4096_d0 : Shape.Concatenates [S1024x4096, S1024x4096] S2048x4096 0
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x4096 : Shape := ⟨2, ![1024, 4096]⟩
abbrev S4096 : Shape := ⟨1, ![4096]⟩
abbrev S16384x4096 : Shape := ⟨2, ![16384, 4096]⟩
abbrev S1x4096 : Shape := ⟨2, ![1, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x4096, .f32⟩
  | .hbm, ⟨4, _⟩ => ⟨S4096, .f32⟩
  | .hbm, ⟨5, _⟩ => ⟨S1024x4096, .f32⟩
  | .hbm, ⟨6, _⟩ => ⟨S4096, .f32⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S1x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  dot_S16384x1024_S1024x4096_S16384x4096_1_0_0_1_n_n_wf : DotDims.WF S16384x1024 S1024x4096 S16384x4096 [1] [0] [0] [1] [] []

variable [Facts₀]

def dot_S16384x1024_S1024x4096_S16384x4096_1_0_0_1_n_n : DotDims S16384x1024 S1024x4096 S16384x4096 where
  lhsContracting := [1]
  rhsContracting := [0]
  lhsNonContracting := [0]
  rhsNonContracting := [1]
  lhsBatch := []
  rhsBatch := []
  wf := dot_S16384x1024_S1024x4096_S16384x4096_1_0_0_1_n_n_wf

class Facts : Prop extends Facts₀ where

variable [Facts]
-- ==== Proof.LstmSpec.lean ====
/-
  The recurrent cell both programs compute, entry by entry, on the extended reals.

  From activations `x`, `s` (the previous state) and `cell` of 16384 rows by 1024 columns, weights `Wx`, `Wh`
  of 1024 rows by 4096 columns and biases `bx`, `bh` of 4096 entries, the pre-activation of row `p` and pre-activation
  column `c` is

      preact p c = (Σ_k x[p,k]·Wx[k,c] + bx[c]) + (Σ_k s[p,k]·Wh[k,c] + bh[c]),        k over 1024 columns.

  The 4096 pre-activation columns are four groups of 1024: columns `q`, `1024+q`, `2048+q`, `3072+q` feed, in that order, a
  hyperbolic tangent, a logistic, a logistic and a hyperbolic tangent. The new cell and the new state at `(p, q)` are

      cellNext  p q = cell[p,q] · σ(preact p (2048+q)) + tanh(preact p q) · σ(preact p (1024+q))
      stateNext p q = tanh(cellNext p q) · tanh(preact p (3072+q)).

  Two laws of sums are stated here as well, both valid in any additive commutative monoid, hence on the extended
  reals with their infinities: a sum over 2048 consecutive indices is the sum over the first 1024 plus the sum over
  the last 1024, and `(A + B) + (u + v) = (A + u) + (B + v)`. Together they identify one contraction over the
  2048 concatenated columns `[x | s]` against the stacked weights `[Wx ; Wh]`, plus the pre-summed bias
  `bx + bh`, with `preact`. Neither needs any entry to be finite.
-/
import Idealize.ShloMosaic.Lib.ValueIdx
import Idealize.ShloMosaic.PureOps.Ideal.Laws

noncomputable section

namespace Cert.LstmSpec

open Idealize.ShloMosaic Idealize.ShloMosaic.ValueIdx
open scoped BigOperators

/-- The word of the float `1.0` denotes the real number one. -/
theorem one_word : Ideal.ofBits .f32 0x3F800000#32 = 1 := by
  simp [Ideal.ofBits, Ideal.ieee, -EReal.coe_mul]; norm_num

/-- Activations: 16384 rows of 1024 columns. -/
abbrev Acts : Shape := ⟨2, ![16384, 1024]⟩
/-- One weight matrix: 1024 rows of 4096 pre-activation columns. -/
abbrev Wts : Shape := ⟨2, ![1024, 4096]⟩
/-- One bias: 4096 pre-activation columns. -/
abbrev Bias : Shape := ⟨1, ![4096]⟩

/-- Pre-activation column under the first hyperbolic tangent for hidden column `q`. -/
def colI (q : Fin 1024) : Fin 4096 := ⟨q.val, by have := q.isLt; omega⟩
/-- Pre-activation column of the logistic that multiplies it. -/
def colJ (q : Fin 1024) : Fin 4096 := ⟨1024 + q.val, by have := q.isLt; omega⟩
/-- Pre-activation column of the logistic that multiplies the old cell. -/
def colF (q : Fin 1024) : Fin 4096 := ⟨2048 + q.val, by have := q.isLt; omega⟩
/-- Pre-activation column of the output's hyperbolic tangent. -/
def colO (q : Fin 1024) : Fin 4096 := ⟨3072 + q.val, by have := q.isLt; omega⟩

section
variable (x s cell : Acts.Idx → EReal) (Wx Wh : Wts.Idx → EReal) (bx bh : Bias.Idx → EReal)

/-- The pre-activation of row `p`, pre-activation column `c`: each of the two products with its own bias, then added. -/
def preact (p : Fin 16384) (c : Fin 4096) : EReal :=
  ((∑ k : Fin 1024, x (ix2 p k) * Wx (ix2 k c)) + bx (ix1 c))
    + ((∑ k : Fin 1024, s (ix2 p k) * Wh (ix2 k c)) + bh (ix1 c))

/-- The new cell at row `p`, hidden column `q`. -/
def cellNext (p : Fin 16384) (q : Fin 1024) : EReal :=
  cell (ix2 p q) * Ideal.logistic (preact x s Wx Wh bx bh p (colF q))
    + Ideal.tanh (preact x s Wx Wh bx bh p (colI q)) * Ideal.logistic (preact x s Wx Wh bx bh p (colJ q))

/-- The new state at row `p`, hidden column `q`. -/
def stateNext (p : Fin 16384) (q : Fin 1024) : EReal :=
  Ideal.tanh (cellNext x s cell Wx Wh bx bh p q) * Ideal.tanh (preact x s Wx Wh bx bh p (colO q))

/-- The new cell as an array. -/
def cellArr : Acts.Idx → EReal := fun i => cellNext x s cell Wx Wh bx bh (i 0) (i 1)

/-- The new state as an array. -/
def stateArr : Acts.Idx → EReal := fun i => stateNext x s cell Wx Wh bx bh (i 0) (i 1)

end

/-- A sum over 2048 consecutive indices is the sum over the first 1024 plus the sum over the last 1024. -/
theorem sum_halves (f : Fin 2048 → EReal) :
    ∑ k : Fin 2048, f k
      = (∑ k : Fin 1024, f ⟨k.val, by have := k.isLt; omega⟩) + ∑ k : Fin 1024, f ⟨1024 + k.val, by have := k.isLt; omega⟩ :=
  Fin.sum_univ_add (M := EReal) (a := 1024) (b := 1024) f

/-- One contraction over the 2048 concatenated columns plus the pre-summed bias is the pre-activation: the
    terms of the concatenated row `u` and of the stacked weight column `w` are those of the two rows and the two
    weight columns, and the four summands regroup. -/
theorem preact_of_fused (x s : Acts.Idx → EReal) (Wx Wh : Wts.Idx → EReal) (bx bh : Bias.Idx → EReal)
    (p : Fin 16384) (c : Fin 4096) (u w : Fin 2048 → EReal)
    (hux : ∀ k : Fin 1024, u ⟨k.val, by have := k.isLt; omega⟩ = x (ix2 p k))
    (hus : ∀ k : Fin 1024, u ⟨1024 + k.val, by have := k.isLt; omega⟩ = s (ix2 p k))
    (hwx : ∀ k : Fin 1024, w ⟨k.val, by have := k.isLt; omega⟩ = Wx (ix2 k c))
    (hwh : ∀ k : Fin 1024, w ⟨1024 + k.val, by have := k.isLt; omega⟩ = Wh (ix2 k c)) :
    (∑ k : Fin 2048, u k * w k) + (bx (ix1 c) + bh (ix1 c)) = preact x s Wx Wh bx bh p c := by
  unfold preact
  rw [sum_halves (fun k => u k * w k), add_add_add_comm]
  refine congrArg₂ (· + ·) (congrArg (· + bx (ix1 c)) ?_) (congrArg (· + bh (ix1 c)) ?_)
  · exact Finset.sum_congr rfl fun k _ => by show u _ * w _ = _; rw [hux k, hwx k]
  · exact Finset.sum_congr rfl fun k _ => by show u _ * w _ = _; rw [hus k, hwh k]

end Cert.LstmSpec

end
-- ==== Proof.RefRead.lean ====
/-
  The reference program, read entry by entry, is the recurrent cell of `LstmSpec`.

  The reference forms the pre-activations as two matrix products, each with its own bias broadcast along the rows,
  and adds them (its operation %8): at row `p`, pre-activation column `c` this is `preact p c` term for term. It then cuts four
  column groups of 1024, applies the hyperbolic tangent to the first and the last, and spells the logistic of the
  two middle ones as `1 / (1 + e^(-y))` with the constant `1.0`; on the extended reals that quotient is the
  logistic function by definition, once the constant's word is read as the number one.
-/
import proofs.«169800_j75634374082645_2_alg».proof.Proof.Gen.ReferenceIdeal.Read
import proofs.«169800_j75634374082645_2_alg».proof.Proof.LstmSpec

noncomputable section

namespace Cert.ReferenceIdeal.RefValue

open Cert.ReferenceIdeal Cert.ReferenceIdeal.Read Cert.LstmSpec
open Idealize.ShloMosaic Idealize.ShloMosaic.ValueIdx
open scoped BigOperators

variable (x0 x1 x2 : (⟨S16384x1024, .f32⟩ : BufTy).Contents (Elt Ideal))
  (x3 x5 : (⟨S1024x4096, .f32⟩ : BufTy).Contents (Elt Ideal))
  (x4 x6 : (⟨S4096, .f32⟩ : BufTy).Contents (Elt Ideal))

/-! ## Where each operation reads its operand -/

theorem lrow0 (p : Fin 16384) (c : Fin 4096) (k : Fin 1024) : lidx_main_v0 (ix2 p c) k = ix2 p k :=
  funext fun a => Fin.ext (by match a with | ⟨0, _⟩ => rfl | ⟨1, _⟩ => rfl)
theorem rcol0 (p : Fin 16384) (c : Fin 4096) (k : Fin 1024) : ridx_main_v0 (ix2 p c) k = ix2 k c :=
  funext fun a => Fin.ext (by match a with | ⟨0, _⟩ => rfl | ⟨1, _⟩ => rfl)
theorem lrow4 (p : Fin 16384) (c : Fin 4096) (k : Fin 1024) : lidx_main_v4 (ix2 p c) k = ix2 p k :=
  funext fun a => Fin.ext (by match a with | ⟨0, _⟩ => rfl | ⟨1, _⟩ => rfl)
theorem rcol4 (p : Fin 16384) (c : Fin 4096) (k : Fin 1024) : ridx_main_v4 (ix2 p c) k = ix2 k c :=
  funext fun a => Fin.ext (by match a with | ⟨0, _⟩ => rfl | ⟨1, _⟩ => rfl)
theorem bias_x (p : Fin 16384) (c : Fin 4096) : idx_main_v1 (idx_main_v2 (ix2 p c)) = ix1 c :=
  funext fun a => Fin.ext (by match a with | ⟨0, _⟩ => rfl)
theorem bias_h (p : Fin 16384) (c : Fin 4096) : idx_main_v5 (idx_main_v6 (ix2 p c)) = ix1 c :=
  funext fun a => Fin.ext (by match a with | ⟨0, _⟩ => rfl)
theorem cut_i (p : Fin 16384) (q : Fin 1024) : idx_main_v9 (ix2 p q) = ix2 p (colI q) :=
  funext fun a => Fin.ext (by match a with | ⟨0, _⟩ => rfl | ⟨1, _⟩ => rfl)
theorem cut_j (p : Fin 16384) (q : Fin 1024) : idx_main_v10 (ix2 p q) = ix2 p (colJ q) :=
  funext fun a => Fin.ext (by match a with | ⟨0, _⟩ => rfl | ⟨1, _⟩ => rfl)
theorem cut_f (p : Fin 16384) (q : Fin 1024) : idx_main_v11 (ix2 p q) = ix2 p (colF q) :=
  funext fun a => Fin.ext (by match a with | ⟨0, _⟩ => rfl | ⟨1, _⟩ => rfl)
theorem cut_o (p : Fin 16384) (q : Fin 1024) : idx_main_v12 (ix2 p q) = ix2 p (colO q) :=
  funext fun a => Fin.ext (by match a with | ⟨0, _⟩ => rfl | ⟨1, _⟩ => rfl)

/-! ## The pre-activations -/

/-- The reference's summed pre-activation at row `p`, pre-activation column `c`. -/
theorem preact_apply (p : Fin 16384) (c : Fin 4096) :
    val_main_v8 (F := Ideal) x0 x1 x3 x4 x5 x6 (ix2 p c) = preact x0 x1 x3 x5 x4 x6 p c := by
  rw [val_main_v8_apply, val_main_v3_apply, val_main_v7_apply, val_main_v0_apply, val_main_v4_apply,
    val_main_v2_apply, val_main_v6_apply, val_main_v1_apply, val_main_v5_apply, bias_x, bias_h]
  simp only [lrow0, rcol0, lrow4, rcol4]
  rfl

/-! ## The four nonlinearities -/

/-- The reference's spelling of the logistic, `1 / (1 + e^(-y))` with the constant `1.0`, is the logistic. -/
theorem logistic_spelt (y : EReal) :
    FloatOps.hostDivf (F := Ideal) (φ := .f32) (FloatOps.ofBits .f32 0x3F800000#32)
      (FloatOps.addf (FloatOps.ofBits .f32 0x3F800000#32) (FloatOps.hostUnary .exp (FloatOps.hostNegf y)))
      = Ideal.logistic y := by
  show Ideal.div (Ideal.ofBits .f32 0x3F800000#32) (Ideal.ofBits .f32 0x3F800000#32 + Ideal.exp (-y)) = Ideal.div 1 (1 + Ideal.exp (-y))
  rw [one_word]

theorem tanh_first (p : Fin 16384) (q : Fin 1024) :
    val_main_v13 (F := Ideal) x0 x1 x3 x4 x5 x6 (ix2 p q) = Ideal.tanh (preact x0 x1 x3 x5 x4 x6 p (colI q)) := by
  rw [val_main_v13_apply, val_main_v9_apply, cut_i, preact_apply]
  rfl

theorem tanh_last (p : Fin 16384) (q : Fin 1024) :
    val_main_v26 (F := Ideal) x0 x1 x3 x4 x5 x6 (ix2 p q) = Ideal.tanh (preact x0 x1 x3 x5 x4 x6 p (colO q)) := by
  rw [val_main_v26_apply, val_main_v12_apply, cut_o, preact_apply]
  rfl

theorem logistic_second (p : Fin 16384) (q : Fin 1024) :
    val_main_v19 (F := Ideal) x0 x1 x3 x4 x5 x6 (ix2 p q) = Ideal.logistic (preact x0 x1 x3 x5 x4 x6 p (colJ q)) := by
  rw [val_main_v19_apply, val_main_v18_apply, val_main_cst_0_apply, val_main_v17_apply, val_main_v16_apply,
    val_main_cst_apply, val_main_v15_apply, val_main_v14_apply, val_main_v10_apply, cut_j, preact_apply]
  exact logistic_spelt _

theorem logistic_third (p : Fin 16384) (q : Fin 1024) :
    val_main_v25 (F := Ideal) x0 x1 x3 x4 x5 x6 (ix2 p q) = Ideal.logistic (preact x0 x1 x3 x5 x4 x6 p (colF q)) := by
  rw [val_main_v25_apply, val_main_v24_apply, val_main_cst_2_apply, val_main_v23_apply, val_main_v22_apply,
    val_main_cst_1_apply, val_main_v21_apply, val_main_v20_apply, val_main_v11_apply, cut_f, preact_apply]
  exact logistic_spelt _

/-! ## The two results -/

/-- The reference's second result is the new cell. -/
theorem cell_eq : val_main_v29 (F := Ideal) x0 x1 x2 x3 x4 x5 x6 = cellArr x0 x1 x2 x3 x5 x4 x6 := by
  funext i
  obtain ⟨p, q, rfl⟩ : ∃ (p : Fin 16384) (q : Fin 1024), i = ix2 p q := ⟨i 0, i 1, eq_ix2 i⟩
  rw [val_main_v29_apply, val_main_v27_apply, val_main_v28_apply, logistic_third, tanh_first, logistic_second]
  rfl

/-- The reference's first result is the new state. -/
theorem state_eq : val_main_v31 (F := Ideal) x0 x1 x2 x3 x4 x5 x6 = stateArr x0 x1 x2 x3 x5 x4 x6 := by
  funext i
  obtain ⟨p, q, rfl⟩ : ∃ (p : Fin 16384) (q : Fin 1024), i = ix2 p q := ⟨i 0, i 1, eq_ix2 i⟩
  rw [val_main_v31_apply, val_main_v30_apply, tanh_last, cell_eq]
  rfl

end Cert.ReferenceIdeal.RefValue

end
-- ==== Proof.KernelBlocks.lean ====
/-
  The blocks a grid point works on, as rows of the argument arrays.

  Before the region the host stacks the two weight matrices (`Wx` on top of `Wh`, 2048 rows), rounds the stack to the
  matrix unit's format (the identity on the extended reals), adds the two biases and views the sum as one row of 4096
  entries. The grid has 64 points. At point `t` the windows of `x`, of the previous state, of the old cell and of the
  two results hold rows `256·t … 256·t + 255`, all 1024 columns; the windows of the stacked weights and of the bias
  row hold the whole array at every point. An element of a block at coordinate `y` sits in the array at block index
  times block size plus `y`, axis by axis; the block indices are decided once over the 64 points.
-/
import proofs.«169800_j75634374082645_2_alg».proof.Proof.Gen.KernelIdeal.Frame
import proofs.«169800_j75634374082645_2_alg».proof.Proof.LstmSpec
import Idealize.ShloMosaic.Lib.Pipeline.Value
import Idealize.ShloMosaic.Lib.ValueLayout
import Idealize.ShloMosaic.Lib.StableHlo.Run

noncomputable section

namespace Cert.KernelIdeal.Arrays

open Cert.KernelIdeal Cert.KernelIdeal.Gen Cert.LstmSpec
open Idealize.ShloMosaic Idealize.ShloMosaic.TcCoe Idealize.SL.Sem Idealize.ShloMosaic.ValueIdx

variable (m : (ℓ : Loc nD τ sig) → Buf (Elt Ideal) ℓ)

/-! ## The seven argument arrays on core `c`, as launched -/

abbrev xA (c : Dev nD) : Acts.Idx → EReal := m ((c : Thread nD τ).loc main_arg0)
abbrev sA (c : Dev nD) : Acts.Idx → EReal := m ((c : Thread nD τ).loc main_arg1)
abbrev cA (c : Dev nD) : Acts.Idx → EReal := m ((c : Thread nD τ).loc main_arg2)
abbrev wxA (c : Dev nD) : Wts.Idx → EReal := m ((c : Thread nD τ).loc main_arg3)
abbrev bxA (c : Dev nD) : Bias.Idx → EReal := m ((c : Thread nD τ).loc main_arg4)
abbrev whA (c : Dev nD) : Wts.Idx → EReal := m ((c : Thread nD τ).loc main_arg5)
abbrev bhA (c : Dev nD) : Bias.Idx → EReal := m ((c : Thread nD τ).loc main_arg6)

/-! ## What the host leaves for the region -/

/-- The stacked weights as the region finds them: the two weight matrices concatenated along the rows. -/
theorem stacked (c : Dev nD) : (V m c main_v1 : S2048x4096.Idx → EReal)
    = truncf (F := Ideal) .bf16 (concatenate S2048x4096 0 [⟨S1024x4096, m ((c : Thread nD τ).loc main_arg3)⟩, ⟨S1024x4096, m ((c : Thread nD τ).loc main_arg5)⟩]
        concatenates_S1024x4096_S1024x4096_S2048x4096_d0) bitsLt_bf16_f32 := by
  dsimp only [Gen.V, Gen.hostOps0]
  after_results

/-- The bias row as the region finds it: the sum of the two biases viewed as one row. -/
theorem bias_row (c : Dev nD) : (V m c main_v3 : S1x4096.Idx → EReal)
    = shapeCast S1x4096 (addf (F := Ideal) (φ := .f32) (m ((c : Thread nD τ).loc main_arg4)) (m ((c : Thread nD τ).loc main_arg6))) shapeCasts_S4096_S1x4096 := by
  dsimp only [Gen.V, Gen.hostOps0]
  after_results
  rfl

/-- The first 1024 rows of the stack are `Wx`. -/
theorem stacked_top (c : Dev nD) (k : Fin 1024) (g : Fin 4096) :
    (V m c main_v1 : S2048x4096.Idx → EReal) (ix2 (⟨k.val, by have := k.isLt; omega⟩ : Fin 2048) g) = wxA m c (ix2 k g) := by
  rw [stacked]
  show concatenate S2048x4096 0 [⟨S1024x4096, m ((c : Thread nD τ).loc main_arg3)⟩, ⟨S1024x4096, m ((c : Thread nD τ).loc main_arg5)⟩]
      concatenates_S1024x4096_S1024x4096_S2048x4096_d0 (ix2 (⟨k.val, by have := k.isLt; omega⟩ : Fin 2048) g) = _
  exact concatenate_pair_apply_left (t := S2048x4096) (s₁ := S1024x4096) (s₂ := S1024x4096) 0 _ _
    concatenates_S1024x4096_S1024x4096_S2048x4096_d0 _ rfl (ix2 k g)
    (fun b => by match b with | ⟨0, _⟩ => rfl | ⟨1, _⟩ => rfl)

/-- The last 1024 rows of the stack are `Wh`. -/
theorem stacked_bottom (c : Dev nD) (k : Fin 1024) (g : Fin 4096) :
    (V m c main_v1 : S2048x4096.Idx → EReal) (ix2 (⟨1024 + k.val, by have := k.isLt; omega⟩ : Fin 2048) g) = whA m c (ix2 k g) := by
  rw [stacked]
  show concatenate S2048x4096 0 [⟨S1024x4096, m ((c : Thread nD τ).loc main_arg3)⟩, ⟨S1024x4096, m ((c : Thread nD τ).loc main_arg5)⟩]
      concatenates_S1024x4096_S1024x4096_S2048x4096_d0 (ix2 (⟨1024 + k.val, by have := k.isLt; omega⟩ : Fin 2048) g) = _
  exact concatenate_pair_apply_right (t := S2048x4096) (s₁ := S1024x4096) (s₂ := S1024x4096) 0 _ _
    concatenates_S1024x4096_S1024x4096_S2048x4096_d0 _ rfl rfl (ix2 k g)
    (fun b hb => by
      match b, hb with
      | ⟨0, _⟩, hb => exact absurd rfl hb
      | ⟨1, _⟩, _ => rfl)
    (by show k.val + 1024 = 1024 + k.val; omega)

/-- The bias row at pre-activation column `g` is the sum of the two biases there. -/
theorem bias_at (c : Dev nD) (g : Fin 4096) :
    (V m c main_v3 : S1x4096.Idx → EReal) (ix2 (0 : Fin 1) g) = bxA m c (ix1 g) + bhA m c (ix1 g) := by
  rw [bias_row]
  exact shapeCast_a_1a_apply (a := 4096) _ _ (0 : Fin 1) g

/-! ## The block indices over the grid -/

/-- At point `t` the five row-blocked windows are at block row `t`, block column 0; the two resident windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Each input block read through its window -/

/-- Row `r` of the `x` block at point `t` is row `256·t + r` of `x`. -/
theorem x_block (c : Dev nD) (t : Fin cfg0.N) (r : Fin 256) (k : Fin 1024) (p : Fin 16384) (hp : p.val = t.val * 256 + r.val) :
    (iblk m c 0 t : Vec Ideal S256x1024 .f32) (ix2 r k) = xA m c (ix2 p k) := by
  unfold iblk
  rw [View.read_apply]
  show V m c main_arg0 _ = _
  rw [V_main_arg0]
  refine congrArg _ ?_
  obtain ⟨e0, e1, -⟩ := idx_facts t
  funext a
  apply Fin.ext
  match a with
  | ⟨0, _⟩ => show win0_0.index t (0 : Fin 2) * 256 + 1 * r.val = p.val; rw [e0, hp]; omega
  | ⟨1, _⟩ => show win0_0.index t (1 : Fin 2) * 1024 + 1 * k.val = k.val; rw [e1]; omega

/-- Row `r` of the state block at point `t` is row `256·t + r` of the previous state. -/
theorem s_block (c : Dev nD) (t : Fin cfg0.N) (r : Fin 256) (k : Fin 1024) (p : Fin 16384) (hp : p.val = t.val * 256 + r.val) :
    (iblk m c 1 t : Vec Ideal S256x1024 .f32) (ix2 r k) = sA m c (ix2 p k) := by
  unfold iblk
  rw [View.read_apply]
  show V m c main_arg1 _ = _
  rw [V_main_arg1]
  refine congrArg _ ?_
  obtain ⟨-, -, e0, e1, -⟩ := idx_facts t
  funext a
  apply Fin.ext
  match a with
  | ⟨0, _⟩ => show win0_1.index t (0 : Fin 2) * 256 + 1 * r.val = p.val; rw [e0, hp]; omega
  | ⟨1, _⟩ => show win0_1.index t (1 : Fin 2) * 1024 + 1 * k.val = k.val; rw [e1]; omega

/-- Row `r` of the cell block at point `t` is row `256·t + r` of the old cell. -/
theorem c_block (c : Dev nD) (t : Fin cfg0.N) (r : Fin 256) (k : Fin 1024) (p : Fin 16384) (hp : p.val = t.val * 256 + r.val) :
    (iblk m c 2 t : Vec Ideal S256x1024 .f32) (ix2 r k) = cA m c (ix2 p k) := by
  unfold iblk
  rw [View.read_apply]
  show V m c main_arg2 _ = _
  rw [V_main_arg2]
  refine congrArg _ ?_
  obtain ⟨-, -, -, -, e0, e1, -⟩ := idx_facts t
  funext a
  apply Fin.ext
  match a with
  | ⟨0, _⟩ => show win0_2.index t (0 : Fin 2) * 256 + 1 * r.val = p.val; rw [e0, hp]; omega
  | ⟨1, _⟩ => show win0_2.index t (1 : Fin 2) * 1024 + 1 * k.val = k.val; rw [e1]; omega

/-- The weight window's block is the whole stack at every point. -/
theorem w_block (c : Dev nD) (t : Fin cfg0.N) (j : S2048x4096.Idx) :
    (iblk m c 3 t : Vec Ideal S2048x4096 .bf16) j = (V m c main_v1 : S2048x4096.Idx → EReal) j := by
  unfold iblk
  rw [View.read_apply]
  show V m c main_v1 _ = _
  refine congrArg _ ?_
  obtain ⟨-, -, -, -, -, -, e0, e1, -⟩ := idx_facts t
  funext a
  apply Fin.ext
  match a with
  | ⟨0, _⟩ => show win0_3.index t (0 : Fin 2) * 2048 + 1 * (j 0).val = (j 0).val; rw [e0]; omega
  | ⟨1, _⟩ => show win0_3.index t (1 : Fin 2) * 4096 + 1 * (j 1).val = (j 1).val; rw [e1]; omega

/-- The bias window's block is the whole bias row at every point. -/
theorem b_block (c : Dev nD) (t : Fin cfg0.N) (j : S1x4096.Idx) :
    (iblk m c 4 t : Vec Ideal S1x4096 .f32) j = (V m c main_v3 : S1x4096.Idx → EReal) j := by
  unfold iblk
  rw [View.read_apply]
  show V m c main_v3 _ = _
  refine congrArg _ ?_
  obtain ⟨-, -, -, -, -, -, -, -, e0, e1, -⟩ := idx_facts t
  funext a
  apply Fin.ext
  match a with
  | ⟨0, _⟩ => show win0_4.index t (0 : Fin 2) * 1 + 1 * (j 0).val = (j 0).val; rw [e0]; omega
  | ⟨1, _⟩ => show win0_4.index t (1 : Fin 2) * 4096 + 1 * (j 1).val = (j 1).val; rw [e1]; omega

end Cert.KernelIdeal.Arrays

end
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KernelPreact.lean ====
/-
  The kernel body's pre-activation block, read entry by entry on the extended reals.

  At one grid point the body holds a block `X` of 256 rows of `x`, the matching block `S` of the previous state, the
  whole stacked weight matrix `W` (2048 rows: the 1024 rows that multiply `x` on top of the 1024 rows that multiply
  the state) and the pre-summed bias `B` as one row. It concatenates `X` and `S` along the columns, multiplies the
  256-by-2048 result by `W` into a zero accumulator and adds `B` to every row. On the extended reals the changes of
  float format are the identity, the product into zero is the plain sum over the 2048 contracted columns, and that sum
  splits at column 1024 into the part that reads `X` and the part that reads `S`. So at block row `r` and pre-activation column
  `c` the block holds

      (Σ_{k<1024} X[r,k]·W[k,c] + Σ_{k<1024} S[r,k]·W[1024+k,c]) + B[0,c].
-/
import proofs.«169800_j75634374082645_2_alg».proof.Proof.Gen.KernelIdeal.Skeleton
import proofs.«169800_j75634374082645_2_alg».proof.Proof.LibMatmulRead
import proofs.«169800_j75634374082645_2_alg».proof.Proof.LstmSpec
import Idealize.ShloMosaic.Lib.Pipeline.Value
import Idealize.ShloMosaic.Lib.ValueIdx

noncomputable section

namespace Cert.KernelIdeal.Body

open Cert.KernelIdeal Cert.KernelIdeal.Gen Cert.LstmSpec
open Idealize.ShloMosaic Idealize.ShloMosaic.ValueIdx
open scoped BigOperators

/-- A column of the concatenated row left of column 1024 reads the first piece. -/
theorem cat_left (h : Shape.Concatenates [S256x1024, S256x1024] S256x2048 1) (A B : S256x1024.Idx → EReal)
    (r : Fin 256) (k : Fin 1024) :
    concatenate S256x2048 1 [⟨S256x1024, A⟩, ⟨S256x1024, B⟩] h (ix2 r (⟨k.val, by have := k.isLt; omega⟩ : Fin 2048))
      = A (ix2 r k) :=
  concatenate_pair_apply_left (t := S256x2048) (s₁ := S256x1024) (s₂ := S256x1024) 1 A B h _ rfl (ix2 r k)
    (fun b => by match b with | ⟨0, _⟩ => rfl | ⟨1, _⟩ => rfl)

/-- A column from 1024 on reads the second piece, 1024 columns to the left. -/
theorem cat_right (h : Shape.Concatenates [S256x1024, S256x1024] S256x2048 1) (A B : S256x1024.Idx → EReal)
    (r : Fin 256) (k : Fin 1024) :
    concatenate S256x2048 1 [⟨S256x1024, A⟩, ⟨S256x1024, B⟩] h (ix2 r (⟨1024 + k.val, by have := k.isLt; omega⟩ : Fin 2048))
      = B (ix2 r k) :=
  concatenate_pair_apply_right (t := S256x2048) (s₁ := S256x1024) (s₂ := S256x1024) 1 A B h _ rfl rfl (ix2 r k)
    (fun b hb => by
      match b, hb with
      | ⟨0, _⟩, _ => rfl
      | ⟨1, _⟩, hb => exact absurd rfl hb)
    (by show k.val + 1024 = 1024 + k.val; omega)

/-- The body's pre-activation block at block row `r`, pre-activation column `c`. -/
theorem preact_block (X S : Vec Ideal S256x1024 .f32) (W : Vec Ideal S2048x4096 .bf16) (B : Vec Ideal S1x4096 .f32)
    (r : Fin 256) (c : Fin 4096) :
    k0_pay1 (F := Ideal) X S W B (ix2 r c)
      = ((∑ k : Fin 1024, X (ix2 r k) * W (ix2 (⟨k.val, by have := k.isLt; omega⟩ : Fin 2048) c))
          + ∑ k : Fin 1024, S (ix2 r k) * W (ix2 (⟨1024 + k.val, by have := k.isLt; omega⟩ : Fin 2048) c))
        + B (ix2 (0 : Fin 1) c) := by
  unfold k0_pay1
  refine (addf_apply _ _ _).trans ?_
  refine congrArg₂ (· + ·) ?_ ?_
  · refine (MatmulRead.matmul_zero_ix2 (a := 256) (K := 2048) (b := 4096)
      (D := dot_S256x2048_S2048x4096_S256x4096_1_0_0_1_n_n) ⟨rfl, rfl, rfl, rfl, rfl, rfl⟩ rfl rfl none _ _ r c).trans ?_
    rw [sum_halves]
    refine congrArg₂ (· + ·) (Finset.sum_congr rfl fun k _ => ?_) (Finset.sum_congr rfl fun k _ => ?_)
    · rw [cat_left, shapeCast_self]; rfl
    · rw [cat_right, shapeCast_self]; rfl
  · refine (broadcastTo_apply _ _ (ix2 r c) (ix2 (0 : Fin 1) c) (fun a => by
      match a with
      | ⟨0, _⟩ => rfl
      | ⟨1, _⟩ => rfl)).trans ?_
    rw [shapeCast_self]

end Cert.KernelIdeal.Body

end
-- ==== Proof.KernelCell.lean ====
/-
  One grid point of the kernel, entry by entry: what its two stores hold, given where its blocks come from.

  The body stores two blocks of 256 rows by 1024 columns. Read at block row `r`, column `q` they are pointwise
  expressions of the old cell block `C` at `(r, q)` and of the pre-activation block at row `r` and the four pre-activation columns `q`, `1024+q`, `2048+q`, `3072+q`. Suppose the point's blocks are rows of the arrays: row `r` of `X`, `S`, `C`
  is row `p` of `x`, `s`, `cell`; the stacked weights hold `Wx` in their first 1024 rows and `Wh` in the last 1024;
  the bias row holds `bx + bh`. Then the pre-activation block at `(r, c)` is `preact p c`: its two partial sums and
  the pre-summed bias regroup as `(A + B) + (u + v) = (A + u) + (B + v)`, a law of commutative addition that
  holds for infinite summands as well. Hence the first store holds `stateNext p q` and the second `cellNext p q`.
-/
import proofs.«169800_j75634374082645_2_alg».proof.Proof.Gen.KernelIdeal.Value
import proofs.«169800_j75634374082645_2_alg».proof.Proof.KernelPreact

noncomputable section

namespace Cert.KernelIdeal.Body

open Cert.KernelIdeal Cert.KernelIdeal.Gen Cert.LstmSpec
open Idealize.ShloMosaic Idealize.ShloMosaic.ValueIdx
open scoped BigOperators

/-- The pre-activation block at block row `r`, pre-activation column `g`, when block row `r` is array row `p`. -/
theorem preact_point (X S : Vec Ideal S256x1024 .f32) (W : Vec Ideal S2048x4096 .bf16) (B : Vec Ideal S1x4096 .f32)
    (x s : Acts.Idx → EReal) (Wx Wh : Wts.Idx → EReal) (bx bh : Bias.Idx → EReal) (r : Fin 256) (p : Fin 16384)
    (hX : ∀ k : Fin 1024, X (ix2 r k) = x (ix2 p k))
    (hS : ∀ k : Fin 1024, S (ix2 r k) = s (ix2 p k))
    (hWx : ∀ (k : Fin 1024) (g : Fin 4096), W (ix2 (⟨k.val, by have := k.isLt; omega⟩ : Fin 2048) g) = Wx (ix2 k g))
    (hWh : ∀ (k : Fin 1024) (g : Fin 4096), W (ix2 (⟨1024 + k.val, by have := k.isLt; omega⟩ : Fin 2048) g) = Wh (ix2 k g))
    (hB : ∀ g : Fin 4096, B (ix2 (0 : Fin 1) g) = bx (ix1 g) + bh (ix1 g)) (g : Fin 4096) :
    k0_pay1 (F := Ideal) X S W B (ix2 r g) = preact x s Wx Wh bx bh p g := by
  rw [preact_block, hB g]
  unfold preact
  rw [add_add_add_comm]
  simp only [hX, hS, hWx, hWh]

/-! ## Where the stored expressions read the old cell and the pre-activation block -/

theorem at_cell6 (r : Fin 256) (q : Fin 1024) : Value.ix6_0 (ix2 r q) = ix2 r q :=
  funext fun a => Fin.ext (by match a with | ⟨0, _⟩ => rfl | ⟨1, _⟩ => rfl)
theorem at_f6 (r : Fin 256) (q : Fin 1024) : Value.ix6_1 (ix2 r q) = ix2 r (colF q) :=
  funext fun a => Fin.ext (by match a with | ⟨0, _⟩ => rfl | ⟨1, _⟩ => (show q.val + 2048 = 2048 + q.val; omega))
theorem at_i6 (r : Fin 256) (q : Fin 1024) : Value.ix6_2 (ix2 r q) = ix2 r (colI q) :=
  funext fun a => Fin.ext (by match a with | ⟨0, _⟩ => rfl | ⟨1, _⟩ => rfl)
theorem at_j6 (r : Fin 256) (q : Fin 1024) : Value.ix6_3 (ix2 r q) = ix2 r (colJ q) :=
  funext fun a => Fin.ext (by match a with | ⟨0, _⟩ => rfl | ⟨1, _⟩ => (show q.val + 1024 = 1024 + q.val; omega))
theorem at_cell5 (r : Fin 256) (q : Fin 1024) : Value.ix5_0 (ix2 r q) = ix2 r q :=
  funext fun a => Fin.ext (by match a with | ⟨0, _⟩ => rfl | ⟨1, _⟩ => rfl)
theorem at_f5 (r : Fin 256) (q : Fin 1024) : Value.ix5_1 (ix2 r q) = ix2 r (colF q) :=
  funext fun a => Fin.ext (by match a with | ⟨0, _⟩ => rfl | ⟨1, _⟩ => (show q.val + 2048 = 2048 + q.val; omega))
theorem at_i5 (r : Fin 256) (q : Fin 1024) : Value.ix5_2 (ix2 r q) = ix2 r (colI q) :=
  funext fun a => Fin.ext (by match a with | ⟨0, _⟩ => rfl | ⟨1, _⟩ => rfl)
theorem at_j5 (r : Fin 256) (q : Fin 1024) : Value.ix5_3 (ix2 r q) = ix2 r (colJ q) :=
  funext fun a => Fin.ext (by match a with | ⟨0, _⟩ => rfl | ⟨1, _⟩ => (show q.val + 1024 = 1024 + q.val; omega))
theorem at_o5 (r : Fin 256) (q : Fin 1024) : Value.ix5_4 (ix2 r q) = ix2 r (colO q) :=
  funext fun a => Fin.ext (by match a with | ⟨0, _⟩ => rfl | ⟨1, _⟩ => (show q.val + 3072 = 3072 + q.val; omega))

/-! ## The two stores -/

/-- The second store (the new cell) at block row `r`, column `q`. -/
theorem cell_point (X S C : Vec Ideal S256x1024 .f32) (W : Vec Ideal S2048x4096 .bf16) (B : Vec Ideal S1x4096 .f32)
    (x s cell : Acts.Idx → EReal) (Wx Wh : Wts.Idx → EReal) (bx bh : Bias.Idx → EReal) (r : Fin 256) (p : Fin 16384)
    (hX : ∀ k : Fin 1024, X (ix2 r k) = x (ix2 p k))
    (hS : ∀ k : Fin 1024, S (ix2 r k) = s (ix2 p k))
    (hWx : ∀ (k : Fin 1024) (g : Fin 4096), W (ix2 (⟨k.val, by have := k.isLt; omega⟩ : Fin 2048) g) = Wx (ix2 k g))
    (hWh : ∀ (k : Fin 1024) (g : Fin 4096), W (ix2 (⟨1024 + k.val, by have := k.isLt; omega⟩ : Fin 2048) g) = Wh (ix2 k g))
    (hB : ∀ g : Fin 4096, B (ix2 (0 : Fin 1) g) = bx (ix1 g) + bh (ix1 g))
    (q : Fin 1024) (hC : C (ix2 r q) = cell (ix2 p q)) :
    Value.E6 (F := Ideal) C X S W B (ix2 r q) = cellNext x s cell Wx Wh bx bh p q := by
  have hg := preact_point X S W B x s Wx Wh bx bh r p hX hS hWx hWh hB
  show FloatOps.addf (FloatOps.mulf (C (Value.ix6_0 (ix2 r q))) (FloatOps.logistic (k0_pay1 X S W B (Value.ix6_1 (ix2 r q)))))
      (FloatOps.mulf (FloatOps.tanh (k0_pay1 X S W B (Value.ix6_2 (ix2 r q)))) (FloatOps.logistic (k0_pay1 X S W B (Value.ix6_3 (ix2 r q))))) = _
  rw [at_cell6, at_f6, at_i6, at_j6, hg (colF q), hg (colI q), hg (colJ q), hC]
  rfl

/-- The first store (the new state) at block row `r`, column `q`. -/
theorem state_point (X S C : Vec Ideal S256x1024 .f32) (W : Vec Ideal S2048x4096 .bf16) (B : Vec Ideal S1x4096 .f32)
    (x s cell : Acts.Idx → EReal) (Wx Wh : Wts.Idx → EReal) (bx bh : Bias.Idx → EReal) (r : Fin 256) (p : Fin 16384)
    (hX : ∀ k : Fin 1024, X (ix2 r k) = x (ix2 p k))
    (hS : ∀ k : Fin 1024, S (ix2 r k) = s (ix2 p k))
    (hWx : ∀ (k : Fin 1024) (g : Fin 4096), W (ix2 (⟨k.val, by have := k.isLt; omega⟩ : Fin 2048) g) = Wx (ix2 k g))
    (hWh : ∀ (k : Fin 1024) (g : Fin 4096), W (ix2 (⟨1024 + k.val, by have := k.isLt; omega⟩ : Fin 2048) g) = Wh (ix2 k g))
    (hB : ∀ g : Fin 4096, B (ix2 (0 : Fin 1) g) = bx (ix1 g) + bh (ix1 g))
    (q : Fin 1024) (hC : C (ix2 r q) = cell (ix2 p q)) :
    Value.E5 (F := Ideal) C X S W B (ix2 r q) = stateNext x s cell Wx Wh bx bh p q := by
  have hg := preact_point X S W B x s Wx Wh bx bh r p hX hS hWx hWh hB
  show FloatOps.mulf (FloatOps.tanh (FloatOps.addf (FloatOps.mulf (C (Value.ix5_0 (ix2 r q))) (FloatOps.logistic (k0_pay1 X S W B (Value.ix5_1 (ix2 r q)))))
      (FloatOps.mulf (FloatOps.tanh (k0_pay1 X S W B (Value.ix5_2 (ix2 r q)))) (FloatOps.logistic (k0_pay1 X S W B (Value.ix5_3 (ix2 r q)))))))
      (FloatOps.tanh (k0_pay1 X S W B (Value.ix5_4 (ix2 r q)))) = _
  rw [at_cell5, at_f5, at_i5, at_j5, at_o5, hg (colF q), hg (colI q), hg (colJ q), hg (colO q), hC]
  rfl

end Cert.KernelIdeal.Body

end
-- ==== Proof.KernelRun.lean ====
/-
  From the blocks the 64 grid points write back to the two result arrays.

  At point `t` the body leaves in each result window a block whose entry `(r, q)` is the new state, respectively the
  new cell, of array row `256·t + r` and column `q`: the point's input blocks are that row range of `x`, of the
  previous state and of the old cell, with the whole stacked weights and bias row. So what point `t` writes back is
  block `t` of one whole-array function. The 64 blocks of 256 rows tile the 16384 rows — row `i` lies in the block
  of point `i / 256` — so after the run each result array is that function everywhere.
-/
import proofs.«169800_j75634374082645_2_alg».proof.Proof.Gen.KernelIdeal.Value
import proofs.«169800_j75634374082645_2_alg».proof.Proof.KernelBlocks
import proofs.«169800_j75634374082645_2_alg».proof.Proof.KernelCell

noncomputable section

namespace Cert.KernelIdeal.Arrays

open Cert.KernelIdeal Cert.KernelIdeal.Gen Cert.KernelIdeal.Body Cert.LstmSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The body's loads and stores start at the origin of their buffers. -/
theorem hz : (![0, 0] : Fin 2 → Nat) = fun _ => 0 := funext fun a => by fin_cases a <;> rfl

/-- The new cell of the arrays core `c` was launched with. -/
abbrev newCell (c : Dev nD) : Acts.Idx → EReal :=
  cellArr (xA m c) (sA m c) (cA m c) (wxA m c) (whA m c) (bxA m c) (bhA m c)

/-- The new state of the arrays core `c` was launched with. -/
abbrev newState (c : Dev nD) : Acts.Idx → EReal :=
  stateArr (xA m c) (sA m c) (cA m c) (wxA m c) (whA m c) (bxA m c) (bhA m c)

/-- What point `t` writes back through window 5 is block `t` of `newState`. -/
theorem flushed5_eq (c : Dev nD) (t : Fin cfg0.N) :
    (dats m 0 c).flushed 5 t = ((cfg0.win 5).blk t).view.read (Elt Ideal) (newState m c) := by
  rw [Value.flushed5]
  unfold out0_5
  simp only [View.ld_unit_zero (S := S256x1024) hz, View.ld_unit_zero (S := S2048x4096) hz, View.ld_unit_zero (S := S1x4096) hz]
  have ht : t.val < 64 := Nat.lt_of_lt_of_eq t.isLt N_0
  obtain ⟨-, -, -, -, -, -, -, -, -, -, e0, e1, -⟩ := idx_facts t
  funext y
  have hy0 : (y 0).val < 256 := (y 0).isLt
  have hy1 : (y 1).val < 1024 := (y 1).isLt
  have hemb : ((cfg0.win 5).blk t).view.emb y
      = ix2 (⟨t.val * 256 + (y 0).val, by omega⟩ : Fin 16384) (⟨(y 1).val, hy1⟩ : Fin 1024) :=
    funext fun a => Fin.ext (by
      match a with
      | ⟨0, _⟩ => show win0_5.index t (0 : Fin 2) * 256 + 1 * (y 0).val = t.val * 256 + (y 0).val; rw [e0]; omega
      | ⟨1, _⟩ => show win0_5.index t (1 : Fin 2) * 1024 + 1 * (y 1).val = (y 1).val; rw [e1]; omega)
  refine (Value.canon5_eq (iblk m c 2 t) (iblk m c 0 t) (iblk m c 1 t) (iblk m c 3 t) (iblk m c 4 t) y).trans ?_
  refine Eq.trans ?_ (congrArg (newState m c) hemb.symm)
  exact state_point (iblk m c 0 t) (iblk m c 1 t) (iblk m c 2 t) (iblk m c 3 t) (iblk m c 4 t)
    (xA m c) (sA m c) (cA m c) (wxA m c) (whA m c) (bxA m c) (bhA m c)
    (⟨(y 0).val, hy0⟩ : Fin 256) (⟨t.val * 256 + (y 0).val, by omega⟩ : Fin 16384)
    (fun k => x_block m c t _ k _ rfl) (fun k => s_block m c t _ k _ rfl)
    (fun k g => (w_block m c t _).trans (stacked_top m c k g))
    (fun k g => (w_block m c t _).trans (stacked_bottom m c k g))
    (fun g => (b_block m c t _).trans (bias_at m c g))
    (⟨(y 1).val, hy1⟩ : Fin 1024) (c_block m c t _ _ _ rfl)

/-- Every entry of the result array lies in the block of the point its row falls in, so the array ends as `newState`. -/
theorem final5 (c : Dev nD) : (dats m 0 c).arrAt 5 cfg0.N = newState m c :=
  (dats m 0 c).arrAt_eq_of_cover 5 (newState m c) (fun t _ => flushed5_eq m c t) fun i => by
    have h0 : (i 0).val < 16384 := (i 0).isLt
    have h1 : (i 1).val < 1024 := (i 1).isLt
    have hN : cfg0.N = 64 := N_0
    obtain ⟨tt, htt⟩ : ∃ tt : Fin cfg0.N, tt.val = (i 0).val / 256 := ⟨⟨(i 0).val / 256, by rw [hN]; omega⟩, rfl⟩
    obtain ⟨-, -, -, -, -, -, -, -, -, -, e0, e1, -⟩ := idx_facts tt
    refine ⟨tt, flush0_5 tt, ?_⟩
    show i ∈ ((View.whole main_v4_0).slice (win0_5.rect tt)).set
    rw [View.set_slice_whole, Rect.mem_set_unit]
    intro a
    match a with
    | ⟨0, _⟩ =>
      show win0_5.index tt (0 : Fin 2) * 256 ≤ (i 0).val ∧ (i 0).val < win0_5.index tt (0 : Fin 2) * 256 + 256
      rw [e0, htt]; omega
    | ⟨1, _⟩ =>
      show win0_5.index tt (1 : Fin 2) * 1024 ≤ (i 1).val ∧ (i 1).val < win0_5.index tt (1 : Fin 2) * 1024 + 1024
      rw [e1]; omega

/-- What point `t` writes back through window 6 is block `t` of `newCell`. -/
theorem flushed6_eq (c : Dev nD) (t : Fin cfg0.N) :
    (dats m 0 c).flushed 6 t = ((cfg0.win 6).blk t).view.read (Elt Ideal) (newCell m c) := by
  rw [Value.flushed6]
  unfold out0_6
  simp only [View.ld_unit_zero (S := S256x1024) hz, View.ld_unit_zero (S := S2048x4096) hz, View.ld_unit_zero (S := S1x4096) hz]
  have ht : t.val < 64 := Nat.lt_of_lt_of_eq t.isLt N_0
  obtain ⟨-, -, -, -, -, -, -, -, -, -, -, -, e0, e1⟩ := idx_facts t
  funext y
  have hy0 : (y 0).val < 256 := (y 0).isLt
  have hy1 : (y 1).val < 1024 := (y 1).isLt
  have hemb : ((cfg0.win 6).blk t).view.emb y
      = ix2 (⟨t.val * 256 + (y 0).val, by omega⟩ : Fin 16384) (⟨(y 1).val, hy1⟩ : Fin 1024) :=
    funext fun a => Fin.ext (by
      match a with
      | ⟨0, _⟩ => show win0_6.index t (0 : Fin 2) * 256 + 1 * (y 0).val = t.val * 256 + (y 0).val; rw [e0]; omega
      | ⟨1, _⟩ => show win0_6.index t (1 : Fin 2) * 1024 + 1 * (y 1).val = (y 1).val; rw [e1]; omega)
  refine (Value.canon6_eq (iblk m c 2 t) (iblk m c 0 t) (iblk m c 1 t) (iblk m c 3 t) (iblk m c 4 t) y).trans ?_
  refine Eq.trans ?_ (congrArg (newCell m c) hemb.symm)
  exact cell_point (iblk m c 0 t) (iblk m c 1 t) (iblk m c 2 t) (iblk m c 3 t) (iblk m c 4 t)
    (xA m c) (sA m c) (cA m c) (wxA m c) (whA m c) (bxA m c) (bhA m c)
    (⟨(y 0).val, hy0⟩ : Fin 256) (⟨t.val * 256 + (y 0).val, by omega⟩ : Fin 16384)
    (fun k => x_block m c t _ k _ rfl) (fun k => s_block m c t _ k _ rfl)
    (fun k g => (w_block m c t _).trans (stacked_top m c k g))
    (fun k g => (w_block m c t _).trans (stacked_bottom m c k g))
    (fun g => (b_block m c t _).trans (bias_at m c g))
    (⟨(y 1).val, hy1⟩ : Fin 1024) (c_block m c t _ _ _ rfl)

/-- Every entry of the result array lies in the block of the point its row falls in, so the array ends as `newCell`. -/
theorem final6 (c : Dev nD) : (dats m 0 c).arrAt 6 cfg0.N = newCell m c :=
  (dats m 0 c).arrAt_eq_of_cover 6 (newCell m c) (fun t _ => flushed6_eq m c t) fun i => by
    have h0 : (i 0).val < 16384 := (i 0).isLt
    have h1 : (i 1).val < 1024 := (i 1).isLt
    have hN : cfg0.N = 64 := N_0
    obtain ⟨tt, htt⟩ : ∃ tt : Fin cfg0.N, tt.val = (i 0).val / 256 := ⟨⟨(i 0).val / 256, by rw [hN]; omega⟩, rfl⟩
    obtain ⟨-, -, -, -, -, -, -, -, -, -, -, -, e0, e1⟩ := idx_facts tt
    refine ⟨tt, flush0_6 tt, ?_⟩
    show i ∈ ((View.whole main_v4_1).slice (win0_6.rect tt)).set
    rw [View.set_slice_whole, Rect.mem_set_unit]
    intro a
    match a with
    | ⟨0, _⟩ =>
      show win0_6.index tt (0 : Fin 2) * 256 ≤ (i 0).val ∧ (i 0).val < win0_6.index tt (0 : Fin 2) * 256 + 256
      rw [e0, htt]; omega
    | ⟨1, _⟩ =>
      show win0_6.index tt (1 : Fin 2) * 1024 ≤ (i 1).val ∧ (i 1).val < win0_6.index tt (1 : Fin 2) * 1024 + 1024
      rw [e1]; omega

/-- The kernel's run, read: the first result array ends as the new state, the second as the new cell, and the seven
    arguments are unchanged. -/
theorem run : θ_run defs (onTc (τ := τ) (main (F := Ideal))) ⟨m, fun _ => 0, ρ⟩ fun r => ∀ c : Dev nD,
      r.2.mem ((c : Thread nD τ).loc main_v4_0) = newState m c
      ∧ r.2.mem ((c : Thread nD τ).loc main_v4_1) = newCell m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final5 m c), (h c).2.1.trans (final6 m c), (h c).2.2⟩)
    (Value.run_blocks m ρ)

end Cert.KernelIdeal.Arrays

end
-- ==== Proof.lean ====
/-
  The certificate of a fused recurrent-cell kernel against its two-product reference.

  Both programs map activations `x`, a previous state and an old cell (16384 rows, 1024 columns), two weight matrices
  (1024 rows, 4096 pre-activation columns) and two biases to a new state and a new cell. The reference forms the pre-activations as `(x·Wx + bx) + (state·Wh + bh)`. The kernel concatenates `x` and the state along the columns,
  stacks the two weight matrices along the rows, pre-sums the biases, and per block of 256 rows makes ONE product over
  the 2048 contracted columns plus the summed bias. On the extended reals a product into a zero accumulator is the
  plain sum of the products, that sum splits at column 1024 into the two partial products, and the four summands
  regroup by commutativity and associativity of addition alone — so no entry needs to be finite and the precondition
  is never opened. The four nonlinearities (hyperbolic tangent, logistic, logistic, hyperbolic tangent of the four 1024-column
  groups) and the combination `cell·σ + tanh·σ`, `tanh(cell')·tanh` are the same operations on both sides; the
  reference spells the logistic as `1 / (1 + e^(-y))`, which is the logistic function by definition.

  The modules: `LstmSpec` states the cell entry by entry and the two laws of sums; `RefRead` reads the reference's run
  as that cell; `KernelPreact` and `KernelCell` read one grid point of the kernel; `KernelBlocks` reads each block
  as rows of the arrays; `KernelRun` tiles the 64 blocks into the result arrays. The kernel rewrote no operation when
  it was idealized, so that conjunct is trivial; the three frames are the programs' generated runs.
-/
import proofs.«169800_j75634374082645_2_alg».proof.Defs
import proofs.«169800_j75634374082645_2_alg».proof.Proof.Gen.Kernel
import proofs.«169800_j75634374082645_2_alg».proof.Proof.Gen.Kernel.Skeleton
import proofs.«169800_j75634374082645_2_alg».proof.Proof.Gen.Kernel.Launch
import proofs.«169800_j75634374082645_2_alg».proof.Proof.Gen.Kernel.Points
import proofs.«169800_j75634374082645_2_alg».proof.Proof.Gen.Kernel.Frame
import proofs.«169800_j75634374082645_2_alg».proof.Proof.Gen.KernelIdeal
import proofs.«169800_j75634374082645_2_alg».proof.Proof.Gen.KernelIdeal.Skeleton
import proofs.«169800_j75634374082645_2_alg».proof.Proof.Gen.KernelIdeal.Launch
import proofs.«169800_j75634374082645_2_alg».proof.Proof.Gen.KernelIdeal.Points
import proofs.«169800_j75634374082645_2_alg».proof.Proof.Gen.KernelIdeal.Frame
import proofs.«169800_j75634374082645_2_alg».proof.Proof.Gen.ReferenceIdeal
import proofs.«169800_j75634374082645_2_alg».proof.Proof.Gen.KernelIdeal.Value
import proofs.«169800_j75634374082645_2_alg».proof.Proof.Gen.ReferenceIdeal.Run
import proofs.«169800_j75634374082645_2_alg».proof.Proof.Gen.ReferenceIdeal.Read
import proofs.«169800_j75634374082645_2_alg».proof.Proof.Gen.Pre_finite_inputs
import proofs.«169800_j75634374082645_2_alg».proof.Proof.RefRead
import proofs.«169800_j75634374082645_2_alg».proof.Proof.KernelRun
import Idealize.ShloMosaic.Adequacy
import Idealize.ShloMosaic.Init

noncomputable section

namespace Cert.Proof

open Idealize.ShloMosaic Idealize.SL.Sem

/-- The word-level kernel runs and leaves its arguments unchanged: its generated run. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Idealizing the kernel rewrote no operation: there is nothing to preserve. -/
theorem preserves : Cert.preserves_Kernel_KernelIdeal := trivial

/-- From memories that agree on the seven arguments, the kernel's two result arrays end as the new state and the new
    cell of those arguments (`KernelRun`), and so do the reference's (`RefRead`): equal entry by entry. -/
theorem algebraic : Cert.algebraic_KernelIdeal_ReferenceIdeal := by
  intro m ρ m' ρ' _ hagree
  refine ⟨fun c => Cert.KernelIdeal.Arrays.newState m c, fun c => Cert.KernelIdeal.Arrays.newCell m c,
    Cert.KernelIdeal.Arrays.run m ρ, ?_⟩
  refine (θ_run Cert.ReferenceIdeal.defs _ _).mono (fun _ h c => ?_) (Cert.ReferenceIdeal.Value.run (F := Ideal) m' ρ')
  obtain ⟨h0, h1, h2, h3, h4, h5, h6⟩ := hagree c
  refine ⟨(h c).1.trans ?_, (h c).2.1.trans ?_, (h c).2.2⟩
  · rw [Cert.ReferenceIdeal.Read.val_main_v31_eq, Cert.ReferenceIdeal.RefValue.state_eq, h0, h1, h2, h3, h4, h5, h6]
  · rw [Cert.ReferenceIdeal.Read.val_main_v29_eq, Cert.ReferenceIdeal.RefValue.cell_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
